-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 29
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S8192x1024, .bf16⟩
  | .hbm, ⟨26, _⟩ => ⟨S8192x1024, .bf16⟩
  | .hbm, ⟨27, _⟩ => ⟨S8192x1024, .f32⟩
  | .hbm, ⟨28, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v14) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.WholeBits.lean ====
/-
  The run of the LSTM-cell program as printed, read at any float instance.

  The program is sixteen host lines — slices of the four gate weights, their joins side by side into the two wide
  [1024, 4096] operands, the biases joined into one [1, 4096] row, the roundings of x and h — and then ONE call on a grid
  of 32 points, point t holding rows 256·t … 256·t + 255. Every input window is staged at its block of the array the
  call finds (the three wide operands at their one block, fetched once), the body reads the six staged blocks and stores
  two [256, 1024] blocks: the new hidden state and the new cell state of those rows. This module states what the call
  finds in each buffer, what the body leaves in the two output buffers as functions of the six input blocks, runs the
  body once at a symbolic point, and concludes the run of the whole program: it ends, faults nowhere, each output array
  is the blocks the points wrote, and every other buffer is as the call found it — in particular the eleven arguments
  are as launched.
-/
import proofs.«109967_j3169685864614_2_alg».proof.Proof.Gen.Kernel.Launch
import proofs.«109967_j3169685864614_2_alg».proof.Proof.Gen.Kernel.Skeleton
import proofs.«109967_j3169685864614_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- Core `c`'s buffers when the call is entered: the launch memory after the sixteen host lines. -/
abbrev atEntry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- The program is the host lines, then the call. -/
theorem toCall (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host line before the call writes argument 0: the call finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 1: the call finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 2: the call finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 3: the call finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 4: the call finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 5: the call finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 6: the call finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 7: the call finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 8: the call finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 9: the call finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 10: the call finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point — fetched at that point, or fetched
    earlier with the block index unchanged since —, for any proof data over the entry contents whose body leaves the
    inputs in place. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run -/

/-- From a run after which every array of the call is what the proof data computes and every other buffer is as the call
    found it, the arguments are as launched: the cell state is an input window's array, never written back;
    the other ten are buffers the call does not touch, and no host line writes an argument. -/
theorem argsKept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c)⟩) h

/-! ## What the body stores -/

/-- The whole [256, 1024] block, the whole [1024, 4096] operand, the whole [1, 4096] row: the body's only accesses. -/
abbrev rows : Rect S256x1024 := Rect.unit (s := S256x1024) ![0, 0] S256x1024.size inb_S256x1024_S256x1024_0_0
abbrev wide : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The new hidden state of a block of rows, from the six input blocks: the body's one store into window 6, which
    covers the buffer. -/
def hiddenBlock (x0 : Vec F S256x1024 .bf16) (x1 : Vec F S256x1024 .bf16) (x2 : Vec F S256x1024 .f32) (x3 : Vec F S1024x4096 .bf16) (x4 : Vec F S1024x4096 .bf16) (x5 : Vec F S1x4096 .f32) : Vec F S256x1024 .f32 :=
  View.canon [⟨rows, k0_pay3 (View.ld x0 rows) (View.ld x1 rows) (View.ld x2 rows) (View.ld x3 wide) (View.ld x4 wide) (View.ld x5 biasRow)⟩]

/-- The new cell state of a block of rows: the body's one store into window 7. -/
def cellBlock (x0 : Vec F S256x1024 .bf16) (x1 : Vec F S256x1024 .bf16) (x2 : Vec F S256x1024 .f32) (x3 : Vec F S1024x4096 .bf16) (x4 : Vec F S1024x4096 .bf16) (x5 : Vec F S1x4096 .f32) : Vec F S256x1024 .f32 :=
  View.canon [⟨rows, k0_pay2 (View.ld x0 rows) (View.ld x1 rows) (View.ld x2 rows) (View.ld x3 wide) (View.ld x4 wide) (View.ld x5 biasRow)⟩]

/-- One store through the whole rectangle covers the buffer. -/
theorem rows_cover (p0 : Vec F S256x1024 .f32) (y : S256x1024.Idx) :
    ∃ pc ∈ ([⟨rows, p0⟩] : List (View.Piece (Elt F) S256x1024 .f32)), y ∈ pc.1.set :=
  View.cover_of_tiled [⟨rows, p0⟩] S256x1024.size (by rfl) y

/-! ## The body, run once -/

set_option maxHeartbeats 1000000 in
/-- On whole staging buffers, the six inputs' at read contents and the two outputs' at anything, the body runs to its
    return with the inputs' as they were and the outputs' at the hidden and the cell block of the inputs'. -/
theorem bodyRun (c : Dev nD) (E : Set ℕ) (i : grid0.Coords) (a0 : Memref sig .tc .vmem S256x1024 .bf16) (h0 : a0.IsWhole) (a1 : Memref sig .tc .vmem S256x1024 .bf16) (h1 : a1.IsWhole) (a2 : Memref sig .tc .vmem S256x1024 .f32) (h2 : a2.IsWhole) (a3 : Memref sig .tc .vmem S1024x4096 .bf16) (h3 : a3.IsWhole) (a4 : Memref sig .tc .vmem S1024x4096 .bf16) (h4 : a4.IsWhole) (a5 : Memref sig .tc .vmem S1x4096 .f32) (h5 : a5.IsWhole) (a6 : Memref sig .tc .vmem S256x1024 .f32) (h6 : a6.IsWhole) (a7 : Memref sig .tc .vmem S256x1024 .f32) (h7 : a7.IsWhole)
    (x0 : Vec F S256x1024 .bf16) (x1 : Vec F S256x1024 .bf16) (x2 : Vec F S256x1024 .f32) (x3 : Vec F S1024x4096 .bf16) (x4 : Vec F S1024x4096 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (hiddenBlock x0 x1 x2 x3 x4 x5) ∗ owns (c : Thread nD τ) a7 fullShare (cellBlock x0 x1 x2 x3 x4 x5)) -∗ K ⟨⟩))
      ⊢ wp frame (wpE (defs₀ (F := F)) Variants.none c none) E (cc0__lstm_kernel i a0 h0 a1 h1 a2 h2 a3 h3 a4 h4 a5 h5 a6 h6 a7 h7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_cover _)
  iexists _; isplitr
  swap; · iexact H7
  ipureintro
  exact View.read_writes_eq_canon _ _ _ (rows_cover _)

/-! ## The proof data of the call -/

/-- On core `c`: the arrays as the call finds them; after the body at point `t` each input's buffer at its block and
    the two outputs' at the hidden and the cell block of the six input blocks; nothing kept between points beyond the
    class's invariant; nothing owed; full shares. -/
def cellData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (cellData m 0 c).A w = atEntry m c (Pipeline.arrRef spec0 w) := by
  dsimp only [cellData]

theorem left0 (c : Dev nD) (t : Fin cfg0.N) : (cellData m 0 c).after 0 t = blockAt m c 0 t := by dsimp only [cellData]
theorem left1 (c : Dev nD) (t : Fin cfg0.N) : (cellData m 0 c).after 1 t = blockAt m c 1 t := by dsimp only [cellData]
theorem left2 (c : Dev nD) (t : Fin cfg0.N) : (cellData m 0 c).after 2 t = blockAt m c 2 t := by dsimp only [cellData]
theorem left3 (c : Dev nD) (t : Fin cfg0.N) : (cellData m 0 c).after 3 t = blockAt m c 3 t := by dsimp only [cellData]
theorem left4 (c : Dev nD) (t : Fin cfg0.N) : (cellData m 0 c).after 4 t = blockAt m c 4 t := by dsimp only [cellData]
theorem left5 (c : Dev nD) (t : Fin cfg0.N) : (cellData m 0 c).after 5 t = blockAt m c 5 t := by dsimp only [cellData]
theorem left6 (c : Dev nD) (t : Fin cfg0.N) : (cellData m 0 c).after 6 t = hiddenBlock (blockAt m c 0 t) (blockAt m c 1 t) (blockAt m c 2 t) (blockAt m c 3 t) (blockAt m c 4 t) (blockAt m c 5 t) := by dsimp only [cellData]
theorem left7 (c : Dev nD) (t : Fin cfg0.N) : (cellData m 0 c).after 7 t = cellBlock (blockAt m c 0 t) (blockAt m c 1 t) (blockAt m c 2 t) (blockAt m c 3 t) (blockAt m c 4 t) (blockAt m c 5 t) := by dsimp only [cellData]

theorem held0 (c : Dev nD) (t : Fin cfg0.N) (d) : (cellData m 0 c).before 0 t d = blockAt m c 0 t :=
  held0_of m (cellData m 0 c) (arrays_eq m c 0) (left0 m c) t d
theorem held1 (c : Dev nD) (t : Fin cfg0.N) (d) : (cellData m 0 c).before 1 t d = blockAt m c 1 t :=
  held1_of m (cellData m 0 c) (arrays_eq m c 1) (left1 m c) t d
theorem held2 (c : Dev nD) (t : Fin cfg0.N) (d) : (cellData m 0 c).before 2 t d = blockAt m c 2 t :=
  held2_of m (cellData m 0 c) (arrays_eq m c 2) (left2 m c) t d
theorem held3 (c : Dev nD) (t : Fin cfg0.N) (d) : (cellData m 0 c).before 3 t d = blockAt m c 3 t :=
  held3_of m (cellData m 0 c) (arrays_eq m c 3) (left3 m c) t d
theorem held4 (c : Dev nD) (t : Fin cfg0.N) (d) : (cellData m 0 c).before 4 t d = blockAt m c 4 t :=
  held4_of m (cellData m 0 c) (arrays_eq m c 4) (left4 m c) t d
theorem held5 (c : Dev nD) (t : Fin cfg0.N) (d) : (cellData m 0 c).before 5 t d = blockAt m c 5 t :=
  held5_of m (cellData m 0 c) (arrays_eq m c 5) (left5 m c) t d

/-! ## The body at a generic point -/

/-- What the body is called with at point `t`, the windows one by one, -/
def bodyPre (c : Dev nD) (t : Fin cfg0.N) : sProp 𝕄 :=
  iprop((cellData m 0 c).Φ t.castSucc ∗ (cellData m 0 c).owesAt () t.castSucc
    ∗ (∃ d, owns (c : Thread nD τ) (st0_0 t) fullShare ((cellData m 0 c).before 0 t d))
    ∗ (∃ d, owns (c : Thread nD τ) (st0_1 t) fullShare ((cellData m 0 c).before 1 t d))
    ∗ (∃ d, owns (c : Thread nD τ) (st0_2 t) fullShare ((cellData m 0 c).before 2 t d))
    ∗ (∃ d, owns (c : Thread nD τ) (st0_3 t) fullShare ((cellData m 0 c).before 3 t d))
    ∗ (∃ d, owns (c : Thread nD τ) (st0_4 t) fullShare ((cellData m 0 c).before 4 t d))
    ∗ (∃ d, owns (c : Thread nD τ) (st0_5 t) fullShare ((cellData m 0 c).before 5 t d))
    ∗ (∃ d, owns (c : Thread nD τ) (st0_6 t) fullShare ((cellData m 0 c).before 6 t d))
    ∗ (∃ d, owns (c : Thread nD τ) (st0_7 t) fullShare ((cellData m 0 c).before 7 t d)))

/-- and what it returns. -/
def bodyPost (c : Dev nD) (t : Fin cfg0.N) : sProp 𝕄 :=
  iprop((cellData m 0 c).Φ t.succ ∗ (cellData m 0 c).owesAt () t.succ
    ∗ owns (c : Thread nD τ) (st0_0 t) fullShare ((cellData m 0 c).after 0 t)
    ∗ owns (c : Thread nD τ) (st0_1 t) fullShare ((cellData m 0 c).after 1 t)
    ∗ owns (c : Thread nD τ) (st0_2 t) fullShare ((cellData m 0 c).after 2 t)
    ∗ owns (c : Thread nD τ) (st0_3 t) fullShare ((cellData m 0 c).after 3 t)
    ∗ owns (c : Thread nD τ) (st0_4 t) fullShare ((cellData m 0 c).after 4 t)
    ∗ owns (c : Thread nD τ) (st0_5 t) fullShare ((cellData m 0 c).after 5 t)
    ∗ owns (c : Thread nD τ) (st0_6 t) fullShare ((cellData m 0 c).after 6 t)
    ∗ owns (c : Thread nD τ) (st0_7 t) fullShare ((cellData m 0 c).after 7 t))

/-- The body at any point: the inputs' buffers hold their blocks, so the single run applies; the invariant passes
    through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (cellData m 0 c).Φ t.succ = (cellData m 0 c).Φ t.castSucc from rfl,
    show (cellData m 0 c).owesAt () t.succ = (cellData m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyEverywhere (c : Dev nD) : BodyObligation (cellData (F := F) m 0 c) (defs₀ (F := F)) Variants.none () Set.univ := fun t => by
  rw [bigSep_W0, bigSep_W0]
  exact bodyAtPoint m c t

/-! ## The run -/

set_option backward.isDefEq.respectTransparency.types false in
/-- From any memory with zero counters every weakly fair execution of the program ends, nothing faulting, with every
    array of the call at what the proof data computes and every other buffer as the call found it. -/
theorem runs : θ_run defs (onTc (τ := τ) (main (F := F))) (s₀ m ρ) (Pipeline.FramePost cfgs (cellData m) 0 (atEntry m)) :=
  Pipeline.θ_run_frame cfgs (cellData m) (0 : Fin 1) launch0 defs₀ Variants.none m ρ main
    (hbody := fun c => (bodyEverywhere m c).loose) (hshare := fun c => (cellData m 0 c).share_full fun _ => rfl)
    (howed := fun _ _ => rfl) (V := atEntry m) (hmain := toCall m Variants.none) (hA := arrays_eq m) (hΦ := fun _ _ => rfl)

/-- The program ends with its eleven arguments as launched. -/
theorem argsUnchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  argsKept m ρ (cellData m) (arrays_eq m) (runs m ρ)

end Cert.Kernel.Whole

end
-- ==== Proof.WholeIdeal.lean ====
/-
  The run of the idealized LSTM-cell program, read at any float instance.

  The program is sixteen host lines — slices of the four gate weights, their joins side by side into the two wide
  [1024, 4096] operands, the biases joined into one [1, 4096] row, the roundings of x and h — and then ONE call on a grid
  of 32 points, point t holding rows 256·t … 256·t + 255. Every input window is staged at its block of the array the
  call finds (the three wide operands at their one block, fetched once), the body reads the six staged blocks and stores
  two [256, 1024] blocks: the new hidden state and the new cell state of those rows. This module states what the call
  finds in each buffer, what the body leaves in the two output buffers as functions of the six input blocks, runs the
  body once at a symbolic point, and concludes the run of the whole program: it ends, faults nowhere, each output array
  is the blocks the points wrote, and every other buffer is as the call found it — in particular the eleven arguments
  are as launched.
-/
import proofs.«109967_j3169685864614_2_alg».proof.Proof.Gen.KernelIdeal.Launch
import proofs.«109967_j3169685864614_2_alg».proof.Proof.Gen.KernelIdeal.Skeleton
import proofs.«109967_j3169685864614_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- Core `c`'s buffers when the call is entered: the launch memory after the sixteen host lines. -/
abbrev atEntry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- The program is the host lines, then the call. -/
theorem toCall (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host line before the call writes argument 0: the call finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 1: the call finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 2: the call finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 3: the call finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 4: the call finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 5: the call finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 6: the call finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 7: the call finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 8: the call finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 9: the call finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the call writes argument 10: the call finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point — fetched at that point, or fetched
    earlier with the block index unchanged since —, for any proof data over the entry contents whose body leaves the
    inputs in place. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run -/

/-- From a run after which every array of the call is what the proof data computes and every other buffer is as the call
    found it, the arguments are as launched: the cell state is an input window's array, never written back;
    the other ten are buffers the call does not touch, and no host line writes an argument. -/
theorem argsKept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c)⟩) h

/-! ## What the body stores -/

/-- The whole [256, 1024] block, the whole [1024, 4096] operand, the whole [1, 4096] row: the body's only accesses. -/
abbrev rows : Rect S256x1024 := Rect.unit (s := S256x1024) ![0, 0] S256x1024.size inb_S256x1024_S256x1024_0_0
abbrev wide : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The new hidden state of a block of rows, from the six input blocks: the body's one store into window 6, which
    covers the buffer. -/
def hiddenBlock (x0 : Vec F S256x1024 .bf16) (x1 : Vec F S256x1024 .bf16) (x2 : Vec F S256x1024 .f32) (x3 : Vec F S1024x4096 .bf16) (x4 : Vec F S1024x4096 .bf16) (x5 : Vec F S1x4096 .f32) : Vec F S256x1024 .f32 :=
  View.canon [⟨rows, k0_pay3 (View.ld x0 rows) (View.ld x1 rows) (View.ld x2 rows) (View.ld x3 wide) (View.ld x4 wide) (View.ld x5 biasRow)⟩]

/-- The new cell state of a block of rows: the body's one store into window 7. -/
def cellBlock (x0 : Vec F S256x1024 .bf16) (x1 : Vec F S256x1024 .bf16) (x2 : Vec F S256x1024 .f32) (x3 : Vec F S1024x4096 .bf16) (x4 : Vec F S1024x4096 .bf16) (x5 : Vec F S1x4096 .f32) : Vec F S256x1024 .f32 :=
  View.canon [⟨rows, k0_pay2 (View.ld x0 rows) (View.ld x1 rows) (View.ld x2 rows) (View.ld x3 wide) (View.ld x4 wide) (View.ld x5 biasRow)⟩]

/-- One store through the whole rectangle covers the buffer. -/
theorem rows_cover (p0 : Vec F S256x1024 .f32) (y : S256x1024.Idx) :
    ∃ pc ∈ ([⟨rows, p0⟩] : List (View.Piece (Elt F) S256x1024 .f32)), y ∈ pc.1.set :=
  View.cover_of_tiled [⟨rows, p0⟩] S256x1024.size (by rfl) y

/-! ## The body, run once -/

set_option maxHeartbeats 1000000 in
/-- On whole staging buffers, the six inputs' at read contents and the two outputs' at anything, the body runs to its
    return with the inputs' as they were and the outputs' at the hidden and the cell block of the inputs'. -/
theorem bodyRun (c : Dev nD) (E : Set ℕ) (i : grid0.Coords) (a0 : Memref sig .tc .vmem S256x1024 .bf16) (h0 : a0.IsWhole) (a1 : Memref sig .tc .vmem S256x1024 .bf16) (h1 : a1.IsWhole) (a2 : Memref sig .tc .vmem S256x1024 .f32) (h2 : a2.IsWhole) (a3 : Memref sig .tc .vmem S1024x4096 .bf16) (h3 : a3.IsWhole) (a4 : Memref sig .tc .vmem S1024x4096 .bf16) (h4 : a4.IsWhole) (a5 : Memref sig .tc .vmem S1x4096 .f32) (h5 : a5.IsWhole) (a6 : Memref sig .tc .vmem S256x1024 .f32) (h6 : a6.IsWhole) (a7 : Memref sig .tc .vmem S256x1024 .f32) (h7 : a7.IsWhole)
    (x0 : Vec F S256x1024 .bf16) (x1 : Vec F S256x1024 .bf16) (x2 : Vec F S256x1024 .f32) (x3 : Vec F S1024x4096 .bf16) (x4 : Vec F S1024x4096 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (hiddenBlock x0 x1 x2 x3 x4 x5) ∗ owns (c : Thread nD τ) a7 fullShare (cellBlock x0 x1 x2 x3 x4 x5)) -∗ K ⟨⟩))
      ⊢ wp frame (wpE (defs₀ (F := F)) Variants.none c none) E (cc0__lstm_kernel i a0 h0 a1 h1 a2 h2 a3 h3 a4 h4 a5 h5 a6 h6 a7 h7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_cover _)
  iexists _; isplitr
  swap; · iexact H7
  ipureintro
  exact View.read_writes_eq_canon _ _ _ (rows_cover _)

/-! ## The proof data of the call -/

/-- On core `c`: the arrays as the call finds them; after the body at point `t` each input's buffer at its block and
    the two outputs' at the hidden and the cell block of the six input blocks; nothing kept between points beyond the
    class's invariant; nothing owed; full shares. -/
def cellData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (cellData m 0 c).A w = atEntry m c (Pipeline.arrRef spec0 w) := by
  dsimp only [cellData]

theorem left0 (c : Dev nD) (t : Fin cfg0.N) : (cellData m 0 c).after 0 t = blockAt m c 0 t := by dsimp only [cellData]
theorem left1 (c : Dev nD) (t : Fin cfg0.N) : (cellData m 0 c).after 1 t = blockAt m c 1 t := by dsimp only [cellData]
theorem left2 (c : Dev nD) (t : Fin cfg0.N) : (cellData m 0 c).after 2 t = blockAt m c 2 t := by dsimp only [cellData]
theorem left3 (c : Dev nD) (t : Fin cfg0.N) : (cellData m 0 c).after 3 t = blockAt m c 3 t := by dsimp only [cellData]
theorem left4 (c : Dev nD) (t : Fin cfg0.N) : (cellData m 0 c).after 4 t = blockAt m c 4 t := by dsimp only [cellData]
theorem left5 (c : Dev nD) (t : Fin cfg0.N) : (cellData m 0 c).after 5 t = blockAt m c 5 t := by dsimp only [cellData]
theorem left6 (c : Dev nD) (t : Fin cfg0.N) : (cellData m 0 c).after 6 t = hiddenBlock (blockAt m c 0 t) (blockAt m c 1 t) (blockAt m c 2 t) (blockAt m c 3 t) (blockAt m c 4 t) (blockAt m c 5 t) := by dsimp only [cellData]
theorem left7 (c : Dev nD) (t : Fin cfg0.N) : (cellData m 0 c).after 7 t = cellBlock (blockAt m c 0 t) (blockAt m c 1 t) (blockAt m c 2 t) (blockAt m c 3 t) (blockAt m c 4 t) (blockAt m c 5 t) := by dsimp only [cellData]

theorem held0 (c : Dev nD) (t : Fin cfg0.N) (d) : (cellData m 0 c).before 0 t d = blockAt m c 0 t :=
  held0_of m (cellData m 0 c) (arrays_eq m c 0) (left0 m c) t d
theorem held1 (c : Dev nD) (t : Fin cfg0.N) (d) : (cellData m 0 c).before 1 t d = blockAt m c 1 t :=
  held1_of m (cellData m 0 c) (arrays_eq m c 1) (left1 m c) t d
theorem held2 (c : Dev nD) (t : Fin cfg0.N) (d) : (cellData m 0 c).before 2 t d = blockAt m c 2 t :=
  held2_of m (cellData m 0 c) (arrays_eq m c 2) (left2 m c) t d
theorem held3 (c : Dev nD) (t : Fin cfg0.N) (d) : (cellData m 0 c).before 3 t d = blockAt m c 3 t :=
  held3_of m (cellData m 0 c) (arrays_eq m c 3) (left3 m c) t d
theorem held4 (c : Dev nD) (t : Fin cfg0.N) (d) : (cellData m 0 c).before 4 t d = blockAt m c 4 t :=
  held4_of m (cellData m 0 c) (arrays_eq m c 4) (left4 m c) t d
theorem held5 (c : Dev nD) (t : Fin cfg0.N) (d) : (cellData m 0 c).before 5 t d = blockAt m c 5 t :=
  held5_of m (cellData m 0 c) (arrays_eq m c 5) (left5 m c) t d

/-! ## The body at a generic point -/

/-- What the body is called with at point `t`, the windows one by one, -/
def bodyPre (c : Dev nD) (t : Fin cfg0.N) : sProp 𝕄 :=
  iprop((cellData m 0 c).Φ t.castSucc ∗ (cellData m 0 c).owesAt () t.castSucc
    ∗ (∃ d, owns (c : Thread nD τ) (st0_0 t) fullShare ((cellData m 0 c).before 0 t d))
    ∗ (∃ d, owns (c : Thread nD τ) (st0_1 t) fullShare ((cellData m 0 c).before 1 t d))
    ∗ (∃ d, owns (c : Thread nD τ) (st0_2 t) fullShare ((cellData m 0 c).before 2 t d))
    ∗ (∃ d, owns (c : Thread nD τ) (st0_3 t) fullShare ((cellData m 0 c).before 3 t d))
    ∗ (∃ d, owns (c : Thread nD τ) (st0_4 t) fullShare ((cellData m 0 c).before 4 t d))
    ∗ (∃ d, owns (c : Thread nD τ) (st0_5 t) fullShare ((cellData m 0 c).before 5 t d))
    ∗ (∃ d, owns (c : Thread nD τ) (st0_6 t) fullShare ((cellData m 0 c).before 6 t d))
    ∗ (∃ d, owns (c : Thread nD τ) (st0_7 t) fullShare ((cellData m 0 c).before 7 t d)))

/-- and what it returns. -/
def bodyPost (c : Dev nD) (t : Fin cfg0.N) : sProp 𝕄 :=
  iprop((cellData m 0 c).Φ t.succ ∗ (cellData m 0 c).owesAt () t.succ
    ∗ owns (c : Thread nD τ) (st0_0 t) fullShare ((cellData m 0 c).after 0 t)
    ∗ owns (c : Thread nD τ) (st0_1 t) fullShare ((cellData m 0 c).after 1 t)
    ∗ owns (c : Thread nD τ) (st0_2 t) fullShare ((cellData m 0 c).after 2 t)
    ∗ owns (c : Thread nD τ) (st0_3 t) fullShare ((cellData m 0 c).after 3 t)
    ∗ owns (c : Thread nD τ) (st0_4 t) fullShare ((cellData m 0 c).after 4 t)
    ∗ owns (c : Thread nD τ) (st0_5 t) fullShare ((cellData m 0 c).after 5 t)
    ∗ owns (c : Thread nD τ) (st0_6 t) fullShare ((cellData m 0 c).after 6 t)
    ∗ owns (c : Thread nD τ) (st0_7 t) fullShare ((cellData m 0 c).after 7 t))

/-- The body at any point: the inputs' buffers hold their blocks, so the single run applies; the invariant passes
    through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (cellData m 0 c).Φ t.succ = (cellData m 0 c).Φ t.castSucc from rfl,
    show (cellData m 0 c).owesAt () t.succ = (cellData m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyEverywhere (c : Dev nD) : BodyObligation (cellData (F := F) m 0 c) (defs₀ (F := F)) Variants.none () Set.univ := fun t => by
  rw [bigSep_W0, bigSep_W0]
  exact bodyAtPoint m c t

/-! ## The run -/

set_option backward.isDefEq.respectTransparency.types false in
/-- From any memory with zero counters every weakly fair execution of the program ends, nothing faulting, with every
    array of the call at what the proof data computes and every other buffer as the call found it. -/
theorem runs : θ_run defs (onTc (τ := τ) (main (F := F))) (s₀ m ρ) (Pipeline.FramePost cfgs (cellData m) 0 (atEntry m)) :=
  Pipeline.θ_run_frame cfgs (cellData m) (0 : Fin 1) launch0 defs₀ Variants.none m ρ main
    (hbody := fun c => (bodyEverywhere m c).loose) (hshare := fun c => (cellData m 0 c).share_full fun _ => rfl)
    (howed := fun _ _ => rfl) (V := atEntry m) (hmain := toCall m Variants.none) (hA := arrays_eq m) (hΦ := fun _ _ => rfl)

/-- The program ends with its eleven arguments as launched. -/
theorem argsUnchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  argsKept m ρ (cellData m) (arrays_eq m) (runs m ρ)

end Cert.KernelIdeal.Whole

end
-- ==== Proof.Joined.lean ====
/-
  Four equal pieces laid side by side, read at an entry.

  Four [1024, 1024] matrices joined along their columns make a [1024, 4096] matrix whose column 1024·g + j is column j
  of piece g; four vectors of 1024 entries joined end to end make a vector of 4096 entries whose entry 1024·g + j is
  entry j of piece g.
-/
import Idealize.ShloMosaic.Lib.Pipeline.Value
import Idealize.ShloMosaic.Lib.ValueIdx

noncomputable section

namespace Cert.Joined

open Idealize.ShloMosaic Idealize.ShloMosaic.ValueIdx

variable {α : Type}

/-- Position j inside piece g of four pieces of extent 1024. -/
def col (g : Fin 4) (j : Fin 1024) : Fin 4096 := ⟨1024 * g.val + j.val, by have := g.isLt; have := j.isLt; omega⟩

/-- The g-th of four things. -/
def pick {β : Type} (g : Fin 4) (a b c d : β) : β :=
  match g with
  | ⟨0, _⟩ => a
  | ⟨1, _⟩ => b
  | ⟨2, _⟩ => c
  | ⟨3, _⟩ => d

/-- Four pieces of one shape, in order. -/
abbrev four (S : Shape) (u0 u1 u2 u3 : S.Idx → α) : List ((s : Shape) × (s.Idx → α)) := [⟨S, u0⟩, ⟨S, u1⟩, ⟨S, u2⟩, ⟨S, u3⟩]

abbrev Sq : Shape := ⟨2, ![1024, 1024]⟩
abbrev Wide : Shape := ⟨2, ![1024, 4096]⟩
abbrev V1 : Shape := ⟨1, ![1024]⟩
abbrev V4 : Shape := ⟨1, ![4096]⟩

/-- Column 1024·g + j of the side-by-side join is column j of piece g. -/
theorem beside_apply (u0 u1 u2 u3 : Sq.Idx → α) (h : Shape.Concatenates [Sq, Sq, Sq, Sq] Wide 1)
    (k : Fin 1024) (g : Fin 4) (j : Fin 1024) :
    concatenate Wide 1 [⟨Sq, u0⟩, ⟨Sq, u1⟩, ⟨Sq, u2⟩, ⟨Sq, u3⟩] h (ix2 k (col g j)) = pick g u0 u1 u2 u3 (ix2 k j) := by
  have side : ∀ b : Fin Sq.rank, b.cast (rfl : Sq.rank = Wide.rank) ≠ (1 : Fin Wide.rank) →
      ((ix2 k j : Sq.Idx) b).val = ((ix2 k (col g j) : Wide.Idx) (b.cast rfl)).val := fun b hb => by
    match b with
    | ⟨0, _⟩ => rfl
    | ⟨1, _⟩ => exact absurd rfl hb
  match g with
  | ⟨0, _⟩ =>
    exact concatenate_apply_piece (1 : Fin Wide.rank) (four Sq u0 u1 u2 u3) h (ix2 k (col 0 j)) 0 (by show 0 < 4; omega) Sq u0 rfl rfl 0 rfl (ix2 k j) side
      (by show 0 + j.val = 1024 * 0 + j.val; omega)
  | ⟨1, _⟩ =>
    exact concatenate_apply_piece (1 : Fin Wide.rank) (four Sq u0 u1 u2 u3) h (ix2 k (col 1 j)) 1 (by show 1 < 4; omega) Sq u1 rfl rfl 1024 rfl (ix2 k j) side
      (by show 1024 + j.val = 1024 * 1 + j.val; omega)
  | ⟨2, _⟩ =>
    exact concatenate_apply_piece (1 : Fin Wide.rank) (four Sq u0 u1 u2 u3) h (ix2 k (col 2 j)) 2 (by show 2 < 4; omega) Sq u2 rfl rfl 2048 rfl (ix2 k j) side
      (by show 2048 + j.val = 1024 * 2 + j.val; omega)
  | ⟨3, _⟩ =>
    exact concatenate_apply_piece (1 : Fin Wide.rank) (four Sq u0 u1 u2 u3) h (ix2 k (col 3 j)) 3 (by show 3 < 4; omega) Sq u3 rfl rfl 3072 rfl (ix2 k j) side
      (by show 3072 + j.val = 1024 * 3 + j.val; omega)

/-- Entry 1024·g + j of the end-to-end join is entry j of piece g. -/
theorem after_apply (u0 u1 u2 u3 : V1.Idx → α) (h : Shape.Concatenates [V1, V1, V1, V1] V4 0) (g : Fin 4) (j : Fin 1024) :
    concatenate V4 0 [⟨V1, u0⟩, ⟨V1, u1⟩, ⟨V1, u2⟩, ⟨V1, u3⟩] h (ix1 (col g j)) = pick g u0 u1 u2 u3 (ix1 j) := by
  have side : ∀ b : Fin V1.rank, b.cast (rfl : V1.rank = V4.rank) ≠ (0 : Fin V4.rank) →
      ((ix1 j : V1.Idx) b).val = ((ix1 (col g j) : V4.Idx) (b.cast rfl)).val := fun b hb => by
    match b with
    | ⟨0, _⟩ => exact absurd rfl hb
  match g with
  | ⟨0, _⟩ =>
    exact concatenate_apply_piece (0 : Fin V4.rank) (four V1 u0 u1 u2 u3) h (ix1 (col 0 j)) 0 (by show 0 < 4; omega) V1 u0 rfl rfl 0 rfl (ix1 j) side
      (by show 0 + j.val = 1024 * 0 + j.val; omega)
  | ⟨1, _⟩ =>
    exact concatenate_apply_piece (0 : Fin V4.rank) (four V1 u0 u1 u2 u3) h (ix1 (col 1 j)) 1 (by show 1 < 4; omega) V1 u1 rfl rfl 1024 rfl (ix1 j) side
      (by show 1024 + j.val = 1024 * 1 + j.val; omega)
  | ⟨2, _⟩ =>
    exact concatenate_apply_piece (0 : Fin V4.rank) (four V1 u0 u1 u2 u3) h (ix1 (col 2 j)) 2 (by show 2 < 4; omega) V1 u2 rfl rfl 2048 rfl (ix1 j) side
      (by show 2048 + j.val = 1024 * 2 + j.val; omega)
  | ⟨3, _⟩ =>
    exact concatenate_apply_piece (0 : Fin V4.rank) (four V1 u0 u1 u2 u3) h (ix1 (col 3 j)) 3 (by show 3 < 4; omega) V1 u3 rfl rfl 3072 rfl (ix1 j) side
      (by show 3072 + j.val = 1024 * 3 + j.val; omega)

end Cert.Joined

end
-- ==== Proof.Cell.lean ====
/-
  The LSTM cell, as one function of its eleven arrays over the extended reals.

  A row r of the batch has an input x[r, ·] and a hidden state h[r, ·], each of 1024 entries; a gate has a weight
  matrix W of 2048 rows — the first 1024 meet x, the last 1024 meet h — and a bias b. Its pre-activation at column j is

      pre r j = (Σ_k x[r,k] · W[k,j]  +  Σ_k h[r,k] · W[1024+k,j])  +  b[j].

  With σ the logistic function the new cell state is  c' = c · σ(pre_f) + tanh(pre_ct) · σ(pre_m)  and the new hidden
  state is  h' = σ(pre_o) · tanh(c').  The sum over the 2048 rows of W taken in one piece is the sum of its two halves:
  addition of extended reals is commutative and associative, so no finiteness is needed anywhere.
-/
import Idealize.ShloMosaic.Lib.ValueIdx
import Idealize.ShloMosaic.PureOps.Ideal

noncomputable section

namespace Cert.Lstm

open Idealize.ShloMosaic Idealize.ShloMosaic.ValueIdx

/-- The batch arrays x, h, c and the two results; a gate's weights; a gate's bias. -/
abbrev Act : Shape := ⟨2, ![8192, 1024]⟩
abbrev Wt : Shape := ⟨2, ![2048, 1024]⟩
abbrev Bs : Shape := ⟨1, ![1024]⟩

/-- Row k of the half of a weight matrix that meets x, and of the half that meets h. -/
def top (k : Fin 1024) : Fin 2048 := ⟨k.val, by omega⟩
def bot (k : Fin 1024) : Fin 2048 := ⟨1024 + k.val, by omega⟩

/-- A gate's pre-activation at row r, column j. -/
def pre (x h : Act.Idx → EReal) (W : Wt.Idx → EReal) (b : Bs.Idx → EReal) (r : Fin 8192) (j : Fin 1024) : EReal :=
  (∑ k : Fin 1024, x (ix2 r k) * W (ix2 (top k) j) + ∑ k : Fin 1024, h (ix2 r k) * W (ix2 (bot k) j)) + b (ix1 j)

/-- The new cell state at row r, column j. -/
def cellAt (x h c : Act.Idx → EReal) (Wf : Wt.Idx → EReal) (bf : Bs.Idx → EReal) (Wct : Wt.Idx → EReal) (bct : Bs.Idx → EReal)
    (Wm : Wt.Idx → EReal) (bm : Bs.Idx → EReal) (r : Fin 8192) (j : Fin 1024) : EReal :=
  c (ix2 r j) * Ideal.logistic (pre x h Wf bf r j) + Ideal.tanh (pre x h Wct bct r j) * Ideal.logistic (pre x h Wm bm r j)

/-- The new hidden state at row r, column j. -/
def hiddenAt (x h c : Act.Idx → EReal) (Wf : Wt.Idx → EReal) (bf : Bs.Idx → EReal) (Wct : Wt.Idx → EReal) (bct : Bs.Idx → EReal)
    (Wm : Wt.Idx → EReal) (bm : Bs.Idx → EReal) (Wo : Wt.Idx → EReal) (bo : Bs.Idx → EReal) (r : Fin 8192) (j : Fin 1024) : EReal :=
  Ideal.logistic (pre x h Wo bo r j) * Ideal.tanh (cellAt x h c Wf bf Wct bct Wm bm r j)

/-- The two results as arrays. -/
def cellArr (x h c : Act.Idx → EReal) (Wf : Wt.Idx → EReal) (bf : Bs.Idx → EReal) (Wct : Wt.Idx → EReal) (bct : Bs.Idx → EReal)
    (Wm : Wt.Idx → EReal) (bm : Bs.Idx → EReal) : Act.Idx → EReal :=
  fun i => cellAt x h c Wf bf Wct bct Wm bm (i 0) (i 1)

def hiddenArr (x h c : Act.Idx → EReal) (Wf : Wt.Idx → EReal) (bf : Bs.Idx → EReal) (Wct : Wt.Idx → EReal) (bct : Bs.Idx → EReal)
    (Wm : Wt.Idx → EReal) (bm : Bs.Idx → EReal) (Wo : Wt.Idx → EReal) (bo : Bs.Idx → EReal) : Act.Idx → EReal :=
  fun i => hiddenAt x h c Wf bf Wct bct Wm bm Wo bo (i 0) (i 1)

/-- A sum over the 2048 rows of a weight matrix is the sum over its first 1024 rows plus the sum over its last 1024. -/
theorem sum_halves {M : Type} [AddCommMonoid M] (f : Fin 2048 → M) :
    ∑ k : Fin 2048, f k = ∑ k : Fin 1024, f (top k) + ∑ k : Fin 1024, f (bot k) :=
  Fin.sum_univ_add (a := 1024) (b := 1024) f

/-- The float word of 1.0 denotes the number one. -/
theorem one_bits : Ideal.ofBits .f32 0x3F800000#32 = 1 := by
  simp [Ideal.ofBits, Ideal.ieee, -EReal.coe_mul]; norm_num

/-- The logistic function spelt with a quotient, the way jax expands it on the host. -/
theorem logistic_quotient (z : EReal) :
    Ideal.div (Ideal.ofBits .f32 0x3F800000#32) (Ideal.ofBits .f32 0x3F800000#32 + Ideal.exp (-z)) = Ideal.logistic z := by
  rw [one_bits]; rfl

end Cert.Lstm

end
-- ==== Proof.Entry.lean ====
/-
  What the call finds in the arrays of its six input windows, entry by entry, over the extended reals.

  A change of float format is the identity here, so the rounded x and h are x and h. The wide x-side operand is the
  first 1024 rows of the four gates' weights laid side by side: its entry (k, 1024·g + j) is gate g's weight at
  (k, j). The wide h-side operand is the last 1024 rows laid side by side: its entry (k, 1024·g + j) is gate g's weight
  at (1024 + k, j). The bias row is the four biases end to end: its entry (0, 1024·g + j) is gate g's bias at j.
-/
import proofs.«109967_j3169685864614_2_alg».proof.Proof.WholeIdeal
import proofs.«109967_j3169685864614_2_alg».proof.Proof.Joined
import proofs.«109967_j3169685864614_2_alg».proof.Proof.Cell
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Found

open Cert.KernelIdeal Cert.KernelIdeal.Gen Cert.KernelIdeal.Whole
open Idealize.ShloMosaic Idealize.ShloMosaic.TcCoe Idealize.SL.Sem Idealize.ShloMosaic.ValueIdx Idealize.ShloMosaic.StableHlo
open Cert.Joined (col pick)
open Cert.Lstm (top bot)

variable (m : (ℓ : Loc nD τ sig) → Buf (Elt Ideal) ℓ)

/-- Choosing among four things commutes with applying one function to each. -/
theorem pick_map {β γ : Type} (f : β → γ) (g : Fin 4) (a b c d : β) : pick g (f a) (f b) (f c) (f d) = f (pick g a b c d) := by
  match g with
  | ⟨0, _⟩ => rfl
  | ⟨1, _⟩ => rfl
  | ⟨2, _⟩ => rfl
  | ⟨3, _⟩ => rfl

/-- The rounded x is x. -/
theorem x_found (c : Dev nD) (i : S8192x1024.Idx) : atEntry m c main_v14 i = (m ((c : Thread nD τ).loc main_arg0)) i := by
  have e : (atEntry m c main_v14 : S8192x1024.Idx → EReal) = truncf (F := Ideal) .bf16 (m ((c : Thread nD τ).loc main_arg0)) bitsLt_bf16_f32 := by
    dsimp only [atEntry, hostOps0]; after_results
  exact congrFun e i

/-- The rounded h is h. -/
theorem h_found (c : Dev nD) (i : S8192x1024.Idx) : atEntry m c main_v15 i = (m ((c : Thread nD τ).loc main_arg1)) i := by
  have e : (atEntry m c main_v15 : S8192x1024.Idx → EReal) = truncf (F := Ideal) .bf16 (m ((c : Thread nD τ).loc main_arg1)) bitsLt_bf16_f32 := by
    dsimp only [atEntry, hostOps0]; after_results
  exact congrFun e i

/-- The wide x-side operand at (k, 1024·g + j) is gate g's weight at (k, j). -/
theorem wx_found (c : Dev nD) (k : Fin 1024) (g : Fin 4) (j : Fin 1024) :
    atEntry m c main_v5 (ix2 k (col g j))
      = pick g ((m ((c : Thread nD τ).loc main_arg3)) : S2048x1024.Idx → EReal) (m ((c : Thread nD τ).loc main_arg5)) (m ((c : Thread nD τ).loc main_arg7)) (m ((c : Thread nD τ).loc main_arg9)) (ix2 (top k) j) := by
  have e : (atEntry m c main_v5 : S1024x4096.Idx → EReal) = truncf (F := Ideal) .bf16 (concatenate S1024x4096 1
      [⟨S1024x1024, extractStridedSlice S1024x1024 ![0, 0] (m ((c : Thread nD τ).loc main_arg3)) slices_S2048x1024_S1024x1024_0_0⟩,
       ⟨S1024x1024, extractStridedSlice S1024x1024 ![0, 0] (m ((c : Thread nD τ).loc main_arg5)) slices_S2048x1024_S1024x1024_0_0⟩,
       ⟨S1024x1024, extractStridedSlice S1024x1024 ![0, 0] (m ((c : Thread nD τ).loc main_arg7)) slices_S2048x1024_S1024x1024_0_0⟩,
       ⟨S1024x1024, extractStridedSlice S1024x1024 ![0, 0] (m ((c : Thread nD τ).loc main_arg9)) slices_S2048x1024_S1024x1024_0_0⟩]
      concatenates_S1024x1024_S1024x1024_S1024x1024_S1024x1024_S1024x4096_d1) bitsLt_bf16_f32 := by
    dsimp only [atEntry, hostOps0]; after_results; rfl
  rw [e, truncf_apply, Cert.Joined.beside_apply,
    pick_map (fun W : S2048x1024.Idx → EReal => extractStridedSlice S1024x1024 ![0, 0] W slices_S2048x1024_S1024x1024_0_0)]
  exact slice2_axis0_apply 0 _ slices_S2048x1024_S1024x1024_0_0 k j (top k) (by show k.val = 0 + k.val; omega)

/-- The wide h-side operand at (k, 1024·g + j) is gate g's weight at (1024 + k, j). -/
theorem wh_found (c : Dev nD) (k : Fin 1024) (g : Fin 4) (j : Fin 1024) :
    atEntry m c main_v11 (ix2 k (col g j))
      = pick g ((m ((c : Thread nD τ).loc main_arg3)) : S2048x1024.Idx → EReal) (m ((c : Thread nD τ).loc main_arg5)) (m ((c : Thread nD τ).loc main_arg7)) (m ((c : Thread nD τ).loc main_arg9)) (ix2 (bot k) j) := by
  have e : (atEntry m c main_v11 : S1024x4096.Idx → EReal) = truncf (F := Ideal) .bf16 (concatenate S1024x4096 1
      [⟨S1024x1024, extractStridedSlice S1024x1024 ![1024, 0] (m ((c : Thread nD τ).loc main_arg3)) slices_S2048x1024_S1024x1024_1024_0⟩,
       ⟨S1024x1024, extractStridedSlice S1024x1024 ![1024, 0] (m ((c : Thread nD τ).loc main_arg5)) slices_S2048x1024_S1024x1024_1024_0⟩,
       ⟨S1024x1024, extractStridedSlice S1024x1024 ![1024, 0] (m ((c : Thread nD τ).loc main_arg7)) slices_S2048x1024_S1024x1024_1024_0⟩,
       ⟨S1024x1024, extractStridedSlice S1024x1024 ![1024, 0] (m ((c : Thread nD τ).loc main_arg9)) slices_S2048x1024_S1024x1024_1024_0⟩]
      concatenates_S1024x1024_S1024x1024_S1024x1024_S1024x1024_S1024x4096_d1) bitsLt_bf16_f32 := by
    dsimp only [atEntry, hostOps0]; after_results; rfl
  rw [e, truncf_apply, Cert.Joined.beside_apply,
    pick_map (fun W : S2048x1024.Idx → EReal => extractStridedSlice S1024x1024 ![1024, 0] W slices_S2048x1024_S1024x1024_1024_0)]
  exact slice2_axis0_apply 1024 _ slices_S2048x1024_S1024x1024_1024_0 k j (bot k) rfl

/-- The bias row at (0, 1024·g + j) is gate g's bias at j. -/
theorem b_found (c : Dev nD) (g : Fin 4) (j : Fin 1024) :
    atEntry m c main_v13 (ix2 (0 : Fin 1) (col g j))
      = pick g ((m ((c : Thread nD τ).loc main_arg4)) : S1024.Idx → EReal) (m ((c : Thread nD τ).loc main_arg6)) (m ((c : Thread nD τ).loc main_arg8)) (m ((c : Thread nD τ).loc main_arg10)) (ix1 j) := by
  have e : (atEntry m c main_v13 : S1x4096.Idx → EReal) = shapeCast S1x4096 (concatenate S4096 0
      [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩]
      concatenates_S1024_S1024_S1024_S1024_S4096_d0) shapeCasts_S4096_S1x4096 := by
    dsimp only [atEntry, hostOps0]; after_results; rfl
  rw [e, shapeCast_a_1a_apply, Cert.Joined.after_apply]

end Cert.KernelIdeal.Found

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Pay.lean ====
/-
  The body's arithmetic, read entry by entry over the extended reals.

  The body forms the [256, 4096] table of pre-activations of all four gates at once: entry (p, n) is the row p of the
  staged x block against column n of the wide x-side operand, plus the row p of the staged h block against column n of
  the wide h-side operand, plus entry n of the bias row. Gate g occupies columns 1024·g … 1024·g + 1023. The new cell
  state at (p, q) is c·σ(gate 0) + tanh(gate 1)·σ(gate 2) at column q of each gate, and the new hidden state is
  σ(gate 3)·tanh(new cell state).
-/
import proofs.«109967_j3169685864614_2_alg».proof.Proof.Gen.KernelIdeal.Skeleton
import proofs.«109967_j3169685864614_2_alg».proof.Proof.LibDotSingle
import proofs.«109967_j3169685864614_2_alg».proof.Proof.Joined
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open Cert.Joined (col)

/-- Entry (p, n) of the table of pre-activations, from the staged blocks. -/
def logit (x0 x1 : FVec Ideal S256x1024 .bf16) (x3 x4 : FVec Ideal S1024x4096 .bf16) (x5 : FVec Ideal S1x4096 .f32)
    (p : Fin 256) (n : Fin 4096) : EReal :=
  (∑ k : Fin 1024, x0 (ix2 p k) * x3 (ix2 k n) + ∑ k : Fin 1024, x1 (ix2 p k) * x4 (ix2 k n)) + x5 (ix2 (0 : Fin 1) n)

/-- On the left operand the product keeps the result's row and takes the contraction coordinate as its column. -/
theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_col (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
/-- On the right operand it takes the contraction coordinate as its row and keeps the result's column. -/
theorem rhs_row (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A [256, 1024] block against a [1024, 4096] operand, into zero: entry (p, n) is the sum over k of row p at k times
    column n at k. -/
theorem product_apply (x : FVec Ideal S256x1024 .bf16) (w : FVec Ideal S1024x4096 .bf16) (p : Fin 256) (n : Fin 4096) :
    matmul (F := Ideal) dot_S256x1024_S1024x4096_S256x4096_1_0_0_1_n_n none x w (constant (F := Ideal) S256x4096 .f32 0x00000000#32) (ix2 p n)
      = ∑ k : Fin 1024, x (ix2 p k) * w (ix2 k n) := by
  refine Cert.LibDotSingle.matmul_zero_apply dot_S256x1024_S1024x4096_S256x4096_1_0_0_1_n_n 1024 rfl rfl none x w (ix2 p n) (fun k => ix2 p k) (fun k => ix2 k n) (fun k => ?_) (fun k => ?_)
  · have hk := contrEquiv1_symm_val dot_S256x1024_S1024x4096_S256x4096_1_0_0_1_n_n 1024 rfl rfl k
    funext a; apply Fin.ext
    match a with
    | ⟨0, _⟩ => exact lhs_row _ _
    | ⟨1, _⟩ => exact (lhs_col _ _).trans hk
  · have hk := contrEquiv1_symm_val dot_S256x1024_S1024x4096_S256x4096_1_0_0_1_n_n 1024 rfl rfl k
    funext a; apply Fin.ext
    match a with
    | ⟨0, _⟩ => exact (rhs_row _ _).trans hk
    | ⟨1, _⟩ => exact rhs_col _ _

/-- The table of pre-activations at an entry. -/
theorem table_apply (x0 x1 : FVec Ideal S256x1024 .bf16) (x3 x4 : FVec Ideal S1024x4096 .bf16) (x5 : FVec Ideal S1x4096 .f32)
    (p : Fin 256) (n : Fin 4096) :
    k0_pay1 (F := Ideal) x0 x1 x3 x4 x5 (ix2 p n) = logit x0 x1 x3 x4 x5 p n := by
  unfold k0_pay1 logit
  simp only [shapeCast_self]
  rw [addf_apply, addf_apply, product_apply, product_apply, broadcastTo_1b_ab_apply]

/-- The part of the table that belongs to gate g, at an entry. -/
theorem gate_apply (g : Fin 4) (o : Nat) (ho : o = 1024 * g.val) (L : FVec Ideal S256x4096 .f32) (h : S256x4096.Slices ![0, o] S256x1024)
    (p : Fin 256) (q : Fin 1024) :
    extractStridedSlice S256x1024 ![0, o] L h (ix2 p q) = L (ix2 p (col g q)) :=
  slice2_axis1_apply o L h p q (col g q) (by subst ho; rfl)

/-- The new cell state the body stores, at an entry. -/
theorem cell_apply (x0 x1 : FVec Ideal S256x1024 .bf16) (x2 : FVec Ideal S256x1024 .f32) (x3 x4 : FVec Ideal S1024x4096 .bf16)
    (x5 : FVec Ideal S1x4096 .f32) (p : Fin 256) (q : Fin 1024) :
    k0_pay2 (F := Ideal) x0 x1 x2 x3 x4 x5 (ix2 p q)
      = x2 (ix2 p q) * Ideal.logistic (logit x0 x1 x3 x4 x5 p (col 0 q))
        + Ideal.tanh (logit x0 x1 x3 x4 x5 p (col 1 q)) * Ideal.logistic (logit x0 x1 x3 x4 x5 p (col 2 q)) := by
  unfold k0_pay2
  have e0 := gate_apply 0 0 rfl (k0_pay1 (F := Ideal) x0 x1 x3 x4 x5) slices_S256x4096_o0_0_S256x1024 p q
  have e1 := gate_apply 1 1024 rfl (k0_pay1 (F := Ideal) x0 x1 x3 x4 x5) slices_S256x4096_o0_1024_S256x1024 p q
  have e2 := gate_apply 2 2048 rfl (k0_pay1 (F := Ideal) x0 x1 x3 x4 x5) slices_S256x4096_o0_2048_S256x1024 p q
  rw [table_apply] at e0 e1 e2
  show x2 (ix2 p q) * Ideal.logistic (extractStridedSlice S256x1024 ![0, 0] (k0_pay1 (F := Ideal) x0 x1 x3 x4 x5) slices_S256x4096_o0_0_S256x1024 (ix2 p q))
      + Ideal.tanh (extractStridedSlice S256x1024 ![0, 1024] (k0_pay1 (F := Ideal) x0 x1 x3 x4 x5) slices_S256x4096_o0_1024_S256x1024 (ix2 p q))
        * Ideal.logistic (extractStridedSlice S256x1024 ![0, 2048] (k0_pay1 (F := Ideal) x0 x1 x3 x4 x5) slices_S256x4096_o0_2048_S256x1024 (ix2 p q)) = _
  rw [e0, e1, e2]

/-- The new hidden state the body stores, at an entry. -/
theorem hidden_apply (x0 x1 : FVec Ideal S256x1024 .bf16) (x2 : FVec Ideal S256x1024 .f32) (x3 x4 : FVec Ideal S1024x4096 .bf16)
    (x5 : FVec Ideal S1x4096 .f32) (p : Fin 256) (q : Fin 1024) :
    k0_pay3 (F := Ideal) x0 x1 x2 x3 x4 x5 (ix2 p q)
      = Ideal.logistic (logit x0 x1 x3 x4 x5 p (col 3 q)) * Ideal.tanh (k0_pay2 (F := Ideal) x0 x1 x2 x3 x4 x5 (ix2 p q)) := by
  unfold k0_pay3
  have e3 := gate_apply 3 3072 rfl (k0_pay1 (F := Ideal) x0 x1 x3 x4 x5) slices_S256x4096_o0_3072_S256x1024 p q
  rw [table_apply] at e3
  show Ideal.logistic (extractStridedSlice S256x1024 ![0, 3072] (k0_pay1 (F := Ideal) x0 x1 x3 x4 x5) slices_S256x4096_o0_3072_S256x1024 (ix2 p q))
      * Ideal.tanh (k0_pay2 (F := Ideal) x0 x1 x2 x3 x4 x5 (ix2 p q)) = _
  rw [e3]

end Cert.KernelIdeal.Pay

end
-- ==== Proof.Point.lean ====
/-
  One block of rows: what the body stores is the LSTM cell on the rows the block holds.

  Suppose the staged x, h and c blocks are rows r(0) … r(255) of the arrays X, H and C, the two wide operands hold the
  top and the bottom halves of the four gates' weights side by side, and the bias row holds the four biases end to end.
  Then entry (p, 1024·g + q) of the body's table is gate g's pre-activation at row r(p), column q, so the stored cell
  block is the new cell state of those rows and the stored hidden block their new hidden state.
-/
import proofs.«109967_j3169685864614_2_alg».proof.Proof.Pay
import proofs.«109967_j3169685864614_2_alg».proof.Proof.Cell

noncomputable section

namespace Cert.KernelIdeal.Point

open Cert.KernelIdeal Cert.KernelIdeal.Gen Cert.KernelIdeal.Pay Idealize.ShloMosaic Idealize.ShloMosaic.ValueIdx
open Cert.Joined (col pick)
open Cert.Lstm

/-- Entry (p, 1024·g + q) of the table is gate g's pre-activation at row r p, column q. -/
theorem table_is_pre (X H C : Act.Idx → EReal) (Wf : Wt.Idx → EReal) (bf : Bs.Idx → EReal) (Wct : Wt.Idx → EReal) (bct : Bs.Idx → EReal)
    (Wm : Wt.Idx → EReal) (bm : Bs.Idx → EReal) (Wo : Wt.Idx → EReal) (bo : Bs.Idx → EReal)
    (x0 x1 : FVec Ideal S256x1024 .bf16) (x2 : FVec Ideal S256x1024 .f32) (x3 x4 : FVec Ideal S1024x4096 .bf16) (x5 : FVec Ideal S1x4096 .f32)
    (r : Fin 256 → Fin 8192)
    (h0 : ∀ p k, x0 (ix2 p k) = X (ix2 (r p) k)) (h1 : ∀ p k, x1 (ix2 p k) = H (ix2 (r p) k)) (h2 : ∀ p q, x2 (ix2 p q) = C (ix2 (r p) q))
    (h3 : ∀ k g j, x3 (ix2 k (col g j)) = pick g Wf Wct Wm Wo (ix2 (top k) j))
    (h4 : ∀ k g j, x4 (ix2 k (col g j)) = pick g Wf Wct Wm Wo (ix2 (bot k) j))
    (h5 : ∀ g j, x5 (ix2 (0 : Fin 1) (col g j)) = pick g bf bct bm bo (ix1 j))
    (p : Fin 256) (g : Fin 4) (q : Fin 1024) :
    logit x0 x1 x3 x4 x5 p (col g q) = pre X H (pick g Wf Wct Wm Wo) (pick g bf bct bm bo) (r p) q := by
  unfold logit pre
  simp only [h0, h1, h3, h4, h5]

/-- The stored cell block is the new cell state of the block's rows. -/
theorem cell_is (X H C : Act.Idx → EReal) (Wf : Wt.Idx → EReal) (bf : Bs.Idx → EReal) (Wct : Wt.Idx → EReal) (bct : Bs.Idx → EReal)
    (Wm : Wt.Idx → EReal) (bm : Bs.Idx → EReal) (Wo : Wt.Idx → EReal) (bo : Bs.Idx → EReal)
    (x0 x1 : FVec Ideal S256x1024 .bf16) (x2 : FVec Ideal S256x1024 .f32) (x3 x4 : FVec Ideal S1024x4096 .bf16) (x5 : FVec Ideal S1x4096 .f32)
    (r : Fin 256 → Fin 8192)
    (h0 : ∀ p k, x0 (ix2 p k) = X (ix2 (r p) k)) (h1 : ∀ p k, x1 (ix2 p k) = H (ix2 (r p) k)) (h2 : ∀ p q, x2 (ix2 p q) = C (ix2 (r p) q))
    (h3 : ∀ k g j, x3 (ix2 k (col g j)) = pick g Wf Wct Wm Wo (ix2 (top k) j))
    (h4 : ∀ k g j, x4 (ix2 k (col g j)) = pick g Wf Wct Wm Wo (ix2 (bot k) j))
    (h5 : ∀ g j, x5 (ix2 (0 : Fin 1) (col g j)) = pick g bf bct bm bo (ix1 j))
    (p : Fin 256) (q : Fin 1024) :
    k0_pay2 (F := Ideal) x0 x1 x2 x3 x4 x5 (ix2 p q) = cellAt X H C Wf bf Wct bct Wm bm (r p) q := by
  rw [cell_apply, h2,
    table_is_pre X H C Wf bf Wct bct Wm bm Wo bo x0 x1 x2 x3 x4 x5 r h0 h1 h2 h3 h4 h5 p 0 q,
    table_is_pre X H C Wf bf Wct bct Wm bm Wo bo x0 x1 x2 x3 x4 x5 r h0 h1 h2 h3 h4 h5 p 1 q,
    table_is_pre X H C Wf bf Wct bct Wm bm Wo bo x0 x1 x2 x3 x4 x5 r h0 h1 h2 h3 h4 h5 p 2 q]
  rfl

/-- The stored hidden block is the new hidden state of the block's rows. -/
theorem hidden_is (X H C : Act.Idx → EReal) (Wf : Wt.Idx → EReal) (bf : Bs.Idx → EReal) (Wct : Wt.Idx → EReal) (bct : Bs.Idx → EReal)
    (Wm : Wt.Idx → EReal) (bm : Bs.Idx → EReal) (Wo : Wt.Idx → EReal) (bo : Bs.Idx → EReal)
    (x0 x1 : FVec Ideal S256x1024 .bf16) (x2 : FVec Ideal S256x1024 .f32) (x3 x4 : FVec Ideal S1024x4096 .bf16) (x5 : FVec Ideal S1x4096 .f32)
    (r : Fin 256 → Fin 8192)
    (h0 : ∀ p k, x0 (ix2 p k) = X (ix2 (r p) k)) (h1 : ∀ p k, x1 (ix2 p k) = H (ix2 (r p) k)) (h2 : ∀ p q, x2 (ix2 p q) = C (ix2 (r p) q))
    (h3 : ∀ k g j, x3 (ix2 k (col g j)) = pick g Wf Wct Wm Wo (ix2 (top k) j))
    (h4 : ∀ k g j, x4 (ix2 k (col g j)) = pick g Wf Wct Wm Wo (ix2 (bot k) j))
    (h5 : ∀ g j, x5 (ix2 (0 : Fin 1) (col g j)) = pick g bf bct bm bo (ix1 j))
    (p : Fin 256) (q : Fin 1024) :
    k0_pay3 (F := Ideal) x0 x1 x2 x3 x4 x5 (ix2 p q) = hiddenAt X H C Wf bf Wct bct Wm bm Wo bo (r p) q := by
  rw [hidden_apply,
    cell_is X H C Wf bf Wct bct Wm bm Wo bo x0 x1 x2 x3 x4 x5 r h0 h1 h2 h3 h4 h5 p q,
    table_is_pre X H C Wf bf Wct bct Wm bm Wo bo x0 x1 x2 x3 x4 x5 r h0 h1 h2 h3 h4 h5 p 3 q]
  rfl

end Cert.KernelIdeal.Point

end
-- ==== Proof.Outcome.lean ====
/-
  The two results of the idealized program are the LSTM cell of its arguments.

  Point t of the grid holds rows 256·t … 256·t + 255 of x, h and c, and the three wide operands whole. So what it
  writes back to the two result arrays is rows 256·t … 256·t + 255 of the new hidden state and of the new cell state
  of the whole arrays; the 32 points cover all 8192 rows, hence after the run the two arrays are those two functions.
-/
import proofs.«109967_j3169685864614_2_alg».proof.Proof.WholeIdeal
import proofs.«109967_j3169685864614_2_alg».proof.Proof.Entry
import proofs.«109967_j3169685864614_2_alg».proof.Proof.Point
import Idealize.ShloMosaic.Lib.Pipeline.Value

set_option maxRecDepth 16384

noncomputable section

namespace Cert.KernelIdeal.Outcome

open Cert.KernelIdeal Cert.KernelIdeal.Gen Cert.KernelIdeal.Whole Cert.KernelIdeal.Found Cert.KernelIdeal.Point
open Idealize.ShloMosaic Idealize.ShloMosaic.TcCoe Idealize.SL.Sem Idealize.ShloMosaic.ValueIdx
open Idealize.ShloMosaic.Pipeline (Dat)
open Cert.Joined (col pick)
open Cert.Lstm

variable (m : (ℓ : Loc nD τ sig) → Buf (Elt Ideal) ℓ) (ρ : Dev nD → PrngReg)

theorem zeroOff : (![0, 0] : Fin 2 → Nat) = fun _ => 0 := funext fun a => by fin_cases a <;> rfl

/-- Where each window's block sits at point t: the five row-blocked windows at block row t, the three wide operands at
    their one block. Decided over the 32 points. -/
theorem moves : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 32 := by
  have h := t.isLt
  have e : cfg0.N = 32 := N_0
  omega

/-- Row p of point t's blocks is row 256·t + p of the arrays. -/
def rowOf (t : Fin cfg0.N) (p : Fin 256) : Fin 8192 := ⟨256 * t.val + p.val, by have := point_lt t; have := p.isLt; omega⟩

/-! ## The six staged blocks -/

theorem x_block (c : Dev nD) (t : Fin cfg0.N) (p : Fin 256) (k : Fin 1024) :
    (blockAt m c 0 t : S256x1024.Idx → EReal) (ix2 p k) = (m ((c : Thread nD τ).loc main_arg0)) (ix2 (rowOf t p) k) := by
  obtain ⟨a0, b0, a1, b1, a2, b2, a6, b6, a7, b7, a3, b3, a4, b4, a5, b5⟩ := moves t
  show atEntry m c main_v14 (((cfg0.win 0).blk t).view.emb (ix2 p k)) = _
  rw [x_found]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem h_block (c : Dev nD) (t : Fin cfg0.N) (p : Fin 256) (k : Fin 1024) :
    (blockAt m c 1 t : S256x1024.Idx → EReal) (ix2 p k) = (m ((c : Thread nD τ).loc main_arg1)) (ix2 (rowOf t p) k) := by
  obtain ⟨a0, b0, a1, b1, a2, b2, a6, b6, a7, b7, a3, b3, a4, b4, a5, b5⟩ := moves t
  show atEntry m c main_v15 (((cfg0.win 1).blk t).view.emb (ix2 p k)) = _
  rw [h_found]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem c_block (c : Dev nD) (t : Fin cfg0.N) (p : Fin 256) (q : Fin 1024) :
    (blockAt m c 2 t : S256x1024.Idx → EReal) (ix2 p q) = (m ((c : Thread nD τ).loc main_arg2)) (ix2 (rowOf t p) q) := by
  obtain ⟨a0, b0, a1, b1, a2, b2, a6, b6, a7, b7, a3, b3, a4, b4, a5, b5⟩ := moves t
  show atEntry m c main_arg2 (((cfg0.win 2).blk t).view.emb (ix2 p q)) = _
  rw [atEntry_arg2]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * q.val = q.val; omega

theorem wx_block (c : Dev nD) (t : Fin cfg0.N) (k : Fin 1024) (g : Fin 4) (j : Fin 1024) :
    (blockAt m c 3 t : S1024x4096.Idx → EReal) (ix2 k (col g j))
      = pick g ((m ((c : Thread nD τ).loc main_arg3)) : Wt.Idx → EReal) (m ((c : Thread nD τ).loc main_arg5)) (m ((c : Thread nD τ).loc main_arg7)) (m ((c : Thread nD τ).loc main_arg9)) (ix2 (top k) j) := by
  obtain ⟨a0, b0, a1, b1, a2, b2, a6, b6, a7, b7, a3, b3, a4, b4, a5, b5⟩ := moves t
  rw [← wx_found m c k g j]
  show atEntry m c main_v5 (((cfg0.win 3).blk t).view.emb (ix2 k (col g j))) = _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * (col g j).val = (col g j).val; omega

theorem wh_block (c : Dev nD) (t : Fin cfg0.N) (k : Fin 1024) (g : Fin 4) (j : Fin 1024) :
    (blockAt m c 4 t : S1024x4096.Idx → EReal) (ix2 k (col g j))
      = pick g ((m ((c : Thread nD τ).loc main_arg3)) : Wt.Idx → EReal) (m ((c : Thread nD τ).loc main_arg5)) (m ((c : Thread nD τ).loc main_arg7)) (m ((c : Thread nD τ).loc main_arg9)) (ix2 (bot k) j) := by
  obtain ⟨a0, b0, a1, b1, a2, b2, a6, b6, a7, b7, a3, b3, a4, b4, a5, b5⟩ := moves t
  rw [← wh_found m c k g j]
  show atEntry m c main_v11 (((cfg0.win 4).blk t).view.emb (ix2 k (col g j))) = _
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * (col g j).val = (col g j).val; omega

theorem b_block (c : Dev nD) (t : Fin cfg0.N) (g : Fin 4) (j : Fin 1024) :
    (blockAt m c 5 t : S1x4096.Idx → EReal) (ix2 (0 : Fin 1) (col g j))
      = pick g ((m ((c : Thread nD τ).loc main_arg4)) : Bs.Idx → EReal) (m ((c : Thread nD τ).loc main_arg6)) (m ((c : Thread nD τ).loc main_arg8)) (m ((c : Thread nD τ).loc main_arg10)) (ix1 j) := by
  obtain ⟨a0, b0, a1, b1, a2, b2, a6, b6, a7, b7, a3, b3, a4, b4, a5, b5⟩ := moves t
  rw [← b_found m c g j]
  show atEntry m c main_v13 (((cfg0.win 5).blk t).view.emb (ix2 (0 : Fin 1) (col g j))) = _
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * (col g j).val = (col g j).val; omega

/-! ## What a point writes back -/

theorem hidden_written (c : Dev nD) (t : Fin cfg0.N) :
    (cellData m 0 c).flushed 6 t = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  obtain ⟨a0, b0, a1, b1, a2, b2, a6, b6, a7, b7, a3, b3, a4, b4, a5, b5⟩ := moves t
  show (cfg0.win 6).cut (grid0.coords t) ((cellData m 0 c).after 6 t) = _
  rw [left6]
  unfold hiddenBlock
  rw [View.canon_unit_zero zeroOff]
  simp only [View.ld_unit_zero (S := S256x1024) zeroOff, View.ld_unit_zero (S := S1024x4096) zeroOff, View.ld_unit_zero (S := S1x4096) zeroOff]
  funext y
  obtain ⟨p, q, rfl⟩ : ∃ (p : Fin 256) (q : Fin 1024), y = ix2 p q := ⟨y 0, y 1, eq_ix2 y⟩
  have er : ((cfg0.win 6).blk t).view.emb (ix2 p q) = (ix2 (rowOf t p) q : S8192x1024.Idx) := funext fun a => Fin.ext (by
    match a with
    | ⟨0, _⟩ => show win0_6.index t (0 : Fin 2) * 256 + 1 * p.val = 256 * t.val + p.val; omega
    | ⟨1, _⟩ => show win0_6.index t (1 : Fin 2) * 1024 + 1 * q.val = q.val; omega)
  show k0_pay3 (F := Ideal) (blockAt m c 0 t) (blockAt m c 1 t) (blockAt m c 2 t) (blockAt m c 3 t) (blockAt m c 4 t) (blockAt m c 5 t) (ix2 p q)
    = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 6).blk t).view.emb (ix2 p q))
  rw [er]
  exact hidden_is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (blockAt m c 0 t) (blockAt m c 1 t) (blockAt m c 2 t) (blockAt m c 3 t) (blockAt m c 4 t) (blockAt m c 5 t) (rowOf t)
      (x_block m c t) (h_block m c t) (c_block m c t) (wx_block m c t) (wh_block m c t) (b_block m c t) p q

theorem cell_written (c : Dev nD) (t : Fin cfg0.N) :
    (cellData m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨a0, b0, a1, b1, a2, b2, a6, b6, a7, b7, a3, b3, a4, b4, a5, b5⟩ := moves t
  show (cfg0.win 7).cut (grid0.coords t) ((cellData m 0 c).after 7 t) = _
  rw [left7]
  unfold cellBlock
  rw [View.canon_unit_zero zeroOff]
  simp only [View.ld_unit_zero (S := S256x1024) zeroOff, View.ld_unit_zero (S := S1024x4096) zeroOff, View.ld_unit_zero (S := S1x4096) zeroOff]
  funext y
  obtain ⟨p, q, rfl⟩ : ∃ (p : Fin 256) (q : Fin 1024), y = ix2 p q := ⟨y 0, y 1, eq_ix2 y⟩
  have er : ((cfg0.win 7).blk t).view.emb (ix2 p q) = (ix2 (rowOf t p) q : S8192x1024.Idx) := funext fun a => Fin.ext (by
    match a with
    | ⟨0, _⟩ => show win0_7.index t (0 : Fin 2) * 256 + 1 * p.val = 256 * t.val + p.val; omega
    | ⟨1, _⟩ => show win0_7.index t (1 : Fin 2) * 1024 + 1 * q.val = q.val; omega)
  show k0_pay2 (F := Ideal) (blockAt m c 0 t) (blockAt m c 1 t) (blockAt m c 2 t) (blockAt m c 3 t) (blockAt m c 4 t) (blockAt m c 5 t) (ix2 p q)
    = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 7).blk t).view.emb (ix2 p q))
  rw [er]
  exact cell_is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (blockAt m c 0 t) (blockAt m c 1 t) (blockAt m c 2 t) (blockAt m c 3 t) (blockAt m c 4 t) (blockAt m c 5 t) (rowOf t)
      (x_block m c t) (h_block m c t) (c_block m c t) (wx_block m c t) (wh_block m c t) (b_block m c t) p q

/-! ## The cover -/

theorem in_hidden_block (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

theorem in_cell_block (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- The point that holds row r is r / 256. -/
def pointOf (i : S8192x1024.Idx) : Fin cfg0.N := ⟨(i 0).val / 256, by
  have h : (i 0).val < 8192 := (i 0).isLt
  have e : cfg0.N = 32 := N_0
  omega⟩

theorem hidden_covered (i : S8192x1024.Idx) : ∃ t : Fin cfg0.N, (cfg0.win 6).flush t = true ∧ i ∈ ((cfg0.win 6).blk t).view.set := by
  refine ⟨pointOf i, flush0_6 _, ?_⟩
  obtain ⟨a0, b0, a1, b1, a2, b2, a6, b6, a7, b7, a3, b3, a4, b4, a5, b5⟩ := moves (pointOf i)
  have h0 : (i 0).val < 8192 := (i 0).isLt
  have h1 : (i 1).val < 1024 := (i 1).isLt
  have hp : (pointOf i).val = (i 0).val / 256 := rfl
  rw [in_hidden_block]
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

theorem cell_covered (i : S8192x1024.Idx) : ∃ t : Fin cfg0.N, (cfg0.win 7).flush t = true ∧ i ∈ ((cfg0.win 7).blk t).view.set := by
  refine ⟨pointOf i, flush0_7 _, ?_⟩
  obtain ⟨a0, b0, a1, b1, a2, b2, a6, b6, a7, b7, a3, b3, a4, b4, a5, b5⟩ := moves (pointOf i)
  have h0 : (i 0).val < 8192 := (i 0).isLt
  have h1 : (i 1).val < 1024 := (i 1).isLt
  have hp : (pointOf i).val = (i 0).val / 256 := rfl
  rw [in_cell_block]
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

/-! ## The arrays after the run -/

theorem hidden_final (c : Dev nD) : (cellData m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (cellData m 0 c).arrAt_eq_of_cover 6 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => hidden_written m c t) hidden_covered

theorem cell_final (c : Dev nD) : (cellData m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (cellData m 0 c).arrAt_eq_of_cover 7 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => cell_written m c t) cell_covered

/-- The idealized program ends, nothing faulting, with the first result at the new hidden state and the second at the
    new cell state of its arguments, and the arguments as launched. -/
theorem run : θ_run defs (onTc (τ := τ) (main (F := Ideal))) ⟨m, fun _ => 0, ρ⟩ fun r => ∀ c : Dev nD,
      r.2.mem ((c.tc : Thread nD τ).loc main_v16_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v16_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (hidden_final m c), ((h c).1 7).trans (cell_final m c),
      ((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((cellData m 0 c).arrAt_in 2 rfl _).trans ((arrays_eq m c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c)⟩)
    (runs m ρ)

end Cert.KernelIdeal.Outcome

end
-- ==== Proof.Ref.lean ====
/-
  The reference, entry by entry, is the LSTM cell.

  The reference joins x and h side by side into one [8192, 2048] array and multiplies it with each gate's whole weight
  matrix: at (r, j) that is the sum over all 2048 rows of the weights, which splits into the first 1024 rows against x
  and the last 1024 rows against h. It spells the logistic function as 1 / (1 + exp(−z)).
-/
import proofs.«109967_j3169685864614_2_alg».proof.Proof.Gen.ReferenceIdeal.Read
import proofs.«109967_j3169685864614_2_alg».proof.Proof.Cell
import Idealize.ShloMosaic.Lib.Pipeline.Value
import Idealize.ShloMosaic.Lib.ValueIdx

noncomputable section

namespace Cert.ReferenceIdeal.Cell

open Cert.ReferenceIdeal Cert.ReferenceIdeal.Gen Cert.ReferenceIdeal.Read Idealize.ShloMosaic Idealize.ShloMosaic.ValueIdx
open Cert.Lstm

/-- [x, h] against a weight matrix at (r, j): the first 1024 rows meet x, the last 1024 meet h. -/
theorem joined_product (x h : Act.Idx → EReal) (W : Wt.Idx → EReal) (r : Fin 8192) (j : Fin 1024)
    (hc : Shape.Concatenates [Act, Act] ⟨2, ![8192, 2048]⟩ 1)
    (li : Fin 2048 → (⟨2, ![8192, 2048]⟩ : Shape).Idx) (ri : Fin 2048 → Wt.Idx)
    (hli : ∀ k, li k = ix2 r k) (hri : ∀ k, ri k = ix2 k j) :
    ∑ k : Fin 2048, concatenate (⟨2, ![8192, 2048]⟩ : Shape) 1 [⟨Act, x⟩, ⟨Act, h⟩] hc (li k) * W (ri k)
      = ∑ k : Fin 1024, x (ix2 r k) * W (ix2 (top k) j) + ∑ k : Fin 1024, h (ix2 r k) * W (ix2 (bot k) j) := by
  rw [sum_halves]
  congr 1
  · refine Finset.sum_congr rfl fun k _ => ?_
    rw [hli, hri]
    congr 1
    refine concatenate_pair_apply_left (1 : Fin 2) x h hc (ix2 r (top k)) rfl (ix2 r k) fun b => ?_
    match b with
    | ⟨0, _⟩ => rfl
    | ⟨1, _⟩ => rfl
  · refine Finset.sum_congr rfl fun k _ => ?_
    rw [hli, hri]
    congr 1
    refine concatenate_pair_apply_right (1 : Fin 2) x h hc (ix2 r (bot k)) rfl rfl (ix2 r k) (fun b hb => ?_) ?_
    · match b with
      | ⟨0, _⟩ => rfl
      | ⟨1, _⟩ => exact absurd rfl hb
    · show k.val + 1024 = 1024 + k.val
      omega

/-- Gate f: the reference's product of [x, h] with the gate's weights, plus the bias, is the pre-activation. -/
theorem pre_f (x0 x1 : Act.Idx → EReal) (x3 : Wt.Idx → EReal) (x4 : Bs.Idx → EReal) (r : Fin 8192) (j : Fin 1024) :
    val_main_v4 (F := Ideal) x0 x1 x3 x4 (ix2 r j) = pre x0 x1 x3 x4 r j := by
  rw [val_main_v4_apply, val_main_v1_apply, val_main_v3_apply, val_main_v2_apply]
  unfold val_main_v0 pre
  rw [joined_product x0 x1 x3 r j concatenates_S8192x1024_S8192x1024_S8192x2048_d1 (lidx_main_v1 (ix2 r j)) (ridx_main_v1 (ix2 r j))
    (fun k => funext fun a => Fin.ext (by match a with | ⟨0, _⟩ => rfl | ⟨1, _⟩ => rfl))
    (fun k => funext fun a => Fin.ext (by match a with | ⟨0, _⟩ => rfl | ⟨1, _⟩ => rfl))]
  have eb : idx_main_v2 (idx_main_v3 (ix2 r j)) = ix1 j := funext fun a => Fin.ext (by match a with | ⟨0, _⟩ => rfl)
  rw [eb]
  rfl

/-- Gate ct: the reference's product of [x, h] with the gate's weights, plus the bias, is the pre-activation. -/
theorem pre_ct (x0 x1 : Act.Idx → EReal) (x5 : Wt.Idx → EReal) (x6 : Bs.Idx → EReal) (r : Fin 8192) (j : Fin 1024) :
    val_main_v14 (F := Ideal) x0 x1 x5 x6 (ix2 r j) = pre x0 x1 x5 x6 r j := by
  rw [val_main_v14_apply, val_main_v11_apply, val_main_v13_apply, val_main_v12_apply]
  unfold val_main_v0 pre
  rw [joined_product x0 x1 x5 r j concatenates_S8192x1024_S8192x1024_S8192x2048_d1 (lidx_main_v11 (ix2 r j)) (ridx_main_v11 (ix2 r j))
    (fun k => funext fun a => Fin.ext (by match a with | ⟨0, _⟩ => rfl | ⟨1, _⟩ => rfl))
    (fun k => funext fun a => Fin.ext (by match a with | ⟨0, _⟩ => rfl | ⟨1, _⟩ => rfl))]
  have eb : idx_main_v12 (idx_main_v13 (ix2 r j)) = ix1 j := funext fun a => Fin.ext (by match a with | ⟨0, _⟩ => rfl)
  rw [eb]
  rfl

/-- Gate m: the reference's product of [x, h] with the gate's weights, plus the bias, is the pre-activation. -/
theorem pre_m (x0 x1 : Act.Idx → EReal) (x7 : Wt.Idx → EReal) (x8 : Bs.Idx → EReal) (r : Fin 8192) (j : Fin 1024) :
    val_main_v19 (F := Ideal) x0 x1 x7 x8 (ix2 r j) = pre x0 x1 x7 x8 r j := by
  rw [val_main_v19_apply, val_main_v16_apply, val_main_v18_apply, val_main_v17_apply]
  unfold val_main_v0 pre
  rw [joined_product x0 x1 x7 r j concatenates_S8192x1024_S8192x1024_S8192x2048_d1 (lidx_main_v16 (ix2 r j)) (ridx_main_v16 (ix2 r j))
    (fun k => funext fun a => Fin.ext (by match a with | ⟨0, _⟩ => rfl | ⟨1, _⟩ => rfl))
    (fun k => funext fun a => Fin.ext (by match a with | ⟨0, _⟩ => rfl | ⟨1, _⟩ => rfl))]
  have eb : idx_main_v17 (idx_main_v18 (ix2 r j)) = ix1 j := funext fun a => Fin.ext (by match a with | ⟨0, _⟩ => rfl)
  rw [eb]
  rfl

/-- Gate o: the reference's product of [x, h] with the gate's weights, plus the bias, is the pre-activation. -/
theorem pre_o (x0 x1 : Act.Idx → EReal) (x9 : Wt.Idx → EReal) (x10 : Bs.Idx → EReal) (r : Fin 8192) (j : Fin 1024) :
    val_main_v32 (F := Ideal) x0 x1 x9 x10 (ix2 r j) = pre x0 x1 x9 x10 r j := by
  rw [val_main_v32_apply, val_main_v29_apply, val_main_v31_apply, val_main_v30_apply]
  unfold val_main_v0 pre
  rw [joined_product x0 x1 x9 r j concatenates_S8192x1024_S8192x1024_S8192x2048_d1 (lidx_main_v29 (ix2 r j)) (ridx_main_v29 (ix2 r j))
    (fun k => funext fun a => Fin.ext (by match a with | ⟨0, _⟩ => rfl | ⟨1, _⟩ => rfl))
    (fun k => funext fun a => Fin.ext (by match a with | ⟨0, _⟩ => rfl | ⟨1, _⟩ => rfl))]
  have eb : idx_main_v30 (idx_main_v31 (ix2 r j)) = ix1 j := funext fun a => Fin.ext (by match a with | ⟨0, _⟩ => rfl)
  rw [eb]
  rfl

/-- Gate f: one over one plus the exponential of the negated pre-activation is its logistic. -/
theorem sig_f (x0 x1 : Act.Idx → EReal) (x3 : Wt.Idx → EReal) (x4 : Bs.Idx → EReal) (r : Fin 8192) (j : Fin 1024) :
    val_main_v10 (F := Ideal) x0 x1 x3 x4 (ix2 r j) = Ideal.logistic (pre x0 x1 x3 x4 r j) := by
  rw [val_main_v10_apply, val_main_v9_apply, val_main_cst_0_apply, val_main_v8_apply, val_main_v7_apply, val_main_cst_apply,
    val_main_v6_apply, val_main_v5_apply, pre_f]
  exact logistic_quotient _

/-- Gate m: one over one plus the exponential of the negated pre-activation is its logistic. -/
theorem sig_m (x0 x1 : Act.Idx → EReal) (x7 : Wt.Idx → EReal) (x8 : Bs.Idx → EReal) (r : Fin 8192) (j : Fin 1024) :
    val_main_v25 (F := Ideal) x0 x1 x7 x8 (ix2 r j) = Ideal.logistic (pre x0 x1 x7 x8 r j) := by
  rw [val_main_v25_apply, val_main_v24_apply, val_main_cst_2_apply, val_main_v23_apply, val_main_v22_apply, val_main_cst_1_apply,
    val_main_v21_apply, val_main_v20_apply, pre_m]
  exact logistic_quotient _

/-- Gate o: one over one plus the exponential of the negated pre-activation is its logistic. -/
theorem sig_o (x0 x1 : Act.Idx → EReal) (x9 : Wt.Idx → EReal) (x10 : Bs.Idx → EReal) (r : Fin 8192) (j : Fin 1024) :
    val_main_v38 (F := Ideal) x0 x1 x9 x10 (ix2 r j) = Ideal.logistic (pre x0 x1 x9 x10 r j) := by
  rw [val_main_v38_apply, val_main_v37_apply, val_main_cst_4_apply, val_main_v36_apply, val_main_v35_apply, val_main_cst_3_apply,
    val_main_v34_apply, val_main_v33_apply, pre_o]
  exact logistic_quotient _

/-- The reference's new cell state is the cell's. -/
theorem cell_eq (x0 x1 x2 : Act.Idx → EReal) (x3 : Wt.Idx → EReal) (x4 : Bs.Idx → EReal) (x5 : Wt.Idx → EReal) (x6 : Bs.Idx → EReal)
    (x7 : Wt.Idx → EReal) (x8 : Bs.Idx → EReal) :
    val_main_v28 (F := Ideal) x0 x1 x2 x3 x4 x5 x6 x7 x8 = cellArr x0 x1 x2 x3 x4 x5 x6 x7 x8 := by
  funext i
  obtain ⟨r, j, rfl⟩ : ∃ (r : Fin 8192) (j : Fin 1024), i = ix2 r j := ⟨i 0, i 1, eq_ix2 i⟩
  rw [val_main_v28_apply, val_main_v26_apply, val_main_v27_apply, val_main_v15_apply, sig_f, sig_m, pre_ct]
  rfl

/-- The reference's new hidden state is the cell's. -/
theorem hidden_eq (x0 x1 x2 : Act.Idx → EReal) (x3 : Wt.Idx → EReal) (x4 : Bs.Idx → EReal) (x5 : Wt.Idx → EReal) (x6 : Bs.Idx → EReal)
    (x7 : Wt.Idx → EReal) (x8 : Bs.Idx → EReal) (x9 : Wt.Idx → EReal) (x10 : Bs.Idx → EReal) :
    val_main_v40 (F := Ideal) x0 x1 x2 x3 x4 x5 x6 x7 x8 x9 x10 = hiddenArr x0 x1 x2 x3 x4 x5 x6 x7 x8 x9 x10 := by
  funext i
  obtain ⟨r, j, rfl⟩ : ∃ (r : Fin 8192) (j : Fin 1024), i = ix2 r j := ⟨i 0, i 1, eq_ix2 i⟩
  rw [val_main_v40_apply, val_main_v39_apply, sig_o, cell_eq]
  rfl

end Cert.ReferenceIdeal.Cell

end
-- ==== Proof.lean ====
/-
  An LSTM cell on a batch of 8192 rows: a kernel that multiplies x and h separately with the four gates' weights laid
  side by side, 256 rows at a time, against a reference that multiplies [x, h] with each gate's weights in turn.

  Over the extended reals both compute, at row r and column j,
      c' = c · σ(pre_f) + tanh(pre_ct) · σ(pre_m),      h' = σ(pre_o) · tanh(c'),
  with pre_g = (Σ_k x[r,k]·W_g[k,j] + Σ_k h[r,k]·W_g[1024+k,j]) + b_g[j]: the reference's single sum over the 2048 rows
  of W_g is the sum of its two halves, and its 1/(1 + exp(−z)) is the logistic function. Only commutativity and
  associativity of addition are used, so the finiteness of the inputs is never opened.

  The three programs run to the end with their arguments unchanged: the two kernels by running the body once at a
  symbolic grid point and launching it at all 32, the reference by its operations in order. Nothing was rewritten by the
  idealization, so it preserves the kernel trivially.
-/
import proofs.«109967_j3169685864614_2_alg».proof.Defs
import proofs.«109967_j3169685864614_2_alg».proof.Proof.Gen.Kernel
import proofs.«109967_j3169685864614_2_alg».proof.Proof.Gen.KernelIdeal
import proofs.«109967_j3169685864614_2_alg».proof.Proof.Gen.ReferenceIdeal
import proofs.«109967_j3169685864614_2_alg».proof.Proof.Gen.Pre_finite_inputs
import proofs.«109967_j3169685864614_2_alg».proof.Proof.Gen.ReferenceIdeal.Read
import proofs.«109967_j3169685864614_2_alg».proof.Proof.WholeBits
import proofs.«109967_j3169685864614_2_alg».proof.Proof.Outcome
import proofs.«109967_j3169685864614_2_alg».proof.Proof.Ref

noncomputable section

namespace Cert.Proof

open Idealize.ShloMosaic Idealize.SL.Sem Cert.Lstm

/-- The kernel as printed runs and leaves its arguments unchanged. -/
theorem frame_k : Cert.frame_Kernel := fun m ρ _ => Cert.Kernel.Whole.argsUnchanged m ρ

/-- So does its idealization. -/
theorem frame_ki : Cert.frame_KernelIdeal := fun m ρ _ => Cert.KernelIdeal.Whole.argsUnchanged m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, both idealized programs end with the new hidden state and the new cell state of the
    LSTM cell of those arguments. -/
theorem algebraic : Cert.algebraic_KernelIdeal_ReferenceIdeal := by
  intro m ρ m' ρ' _ hagree
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Outcome.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  refine ⟨(h c).1.trans ?_, (h c).2.1.trans ?_, (h c).2.2⟩
  · rw [Cert.ReferenceIdeal.Read.val_main_v40_eq, Cert.ReferenceIdeal.Cell.hidden_eq, e0, e1, e2, e3, e4, e5, e6, e7, e8, e9, e10]
  · rw [Cert.ReferenceIdeal.Read.val_main_v28_eq, Cert.ReferenceIdeal.Cell.cell_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
